-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x512 : Shape := ⟨3, ![8, 256, 512]⟩
abbrev S8x64x512 : Shape := ⟨3, ![8, 64, 512]⟩
abbrev S640x512 : Shape := ⟨2, ![640, 512]⟩
abbrev S1024x640 : Shape := ⟨2, ![1024, 640]⟩
abbrev S_ : Shape := ⟨0, ![]⟩

class Facts : Prop where
  bcast_S_S8x256x512 : S_.BroadcastsInDim S8x256x512 (![] : Fin 0 → Fin S8x256x512.rank)
  reducesTo_S8x256x512_S_d0_1_2 : S8x256x512.ReducesTo [0, 1, 2] S_
  h_S_ : 0 < S_.numel
  bcast_S_S8x64x512 : S_.BroadcastsInDim S8x64x512 (![] : Fin 0 → Fin S8x64x512.rank)
  reducesTo_S8x64x512_S_d0_1_2 : S8x64x512.ReducesTo [0, 1, 2] S_
  bcast_S_S640x512 : S_.BroadcastsInDim S640x512 (![] : Fin 0 → Fin S640x512.rank)
  reducesTo_S640x512_S_d0_1 : S640x512.ReducesTo [0, 1] S_
  bcast_S_S1024x640 : S_.BroadcastsInDim S1024x640 (![] : Fin 0 → Fin S1024x640.rank)
  reducesTo_S1024x640_S_d0_1 : S1024x640.ReducesTo [0, 1] S_

variable [Facts]

def fn_part1 {F : FTy → Type} [FloatOps F] (main_arg4 : FVec F S1024x640 .f32) (main_v13 : IVec S_ 1) (main_v16 : IVec S640x512 1) : IVec S_ 1 :=
  let main_c_5 : IVec S_ 1 := constantI S_ 1 1#1
  let main_v17 : IVec S_ 1 := (fun x v => Host.reduce IntOp.andi x v reducesTo_S640x512_S_d0_1 h_S_) main_v16 main_c_5
  let main_v18 : IVec S_ 1 := andi main_v13 main_v17
  let main_v19 : FVec F S1024x640 .f32 := Host.absf main_arg4
  let main_cst_6 : FVec F S_ .f32 := constant S_ .f32 0x7F800000#32
  let main_v20 : FVec F S1024x640 .f32 := broadcastInDim S1024x640 ![] bcast_S_S1024x640 main_cst_6
  let main_v21 : IVec S1024x640 1 := cmpf .olt main_v19 main_v20
  let main_c_7 : IVec S_ 1 := constantI S_ 1 1#1
  let main_v22 : IVec S_ 1 := (fun x v => Host.reduce IntOp.andi x v reducesTo_S1024x640_S_d0_1 h_S_) main_v21 main_c_7
  let main_v23 : IVec S_ 1 := andi main_v18 main_v22
  main_v23

def fn {F : FTy → Type} [FloatOps F] (main_arg0 : FVec F S8x256x512 .f32) (main_arg1 : FVec F S8x64x512 .f32) (main_arg2 : FVec F S640x512 .f32) (main_arg3 : FVec F S640x512 .f32) (main_arg4 : FVec F S1024x640 .f32) : IVec S_ 1 :=
  let main_v0 : FVec F S8x256x512 .f32 := Host.absf main_arg0
  let main_cst : FVec F S_ .f32 := constant S_ .f32 0x7F800000#32
  let main_v1 : FVec F S8x256x512 .f32 := broadcastInDim S8x256x512 ![] bcast_S_S8x256x512 main_cst
  let main_v2 : IVec S8x256x512 1 := cmpf .olt main_v0 main_v1
  let main_c : IVec S_ 1 := constantI S_ 1 1#1
  let main_v3 : IVec S_ 1 := (fun x v => Host.reduce IntOp.andi x v reducesTo_S8x256x512_S_d0_1_2 h_S_) main_v2 main_c
  let main_v4 : FVec F S8x64x512 .f32 := Host.absf main_arg1
  let main_cst_0 : FVec F S_ .f32 := constant S_ .f32 0x7F800000#32
  let main_v5 : FVec F S8x64x512 .f32 := broadcastInDim S8x64x512 ![] bcast_S_S8x64x512 main_cst_0
  let main_v6 : IVec S8x64x512 1 := cmpf .olt main_v4 main_v5
  let main_c_1 : IVec S_ 1 := constantI S_ 1 1#1
  let main_v7 : IVec S_ 1 := (fun x v => Host.reduce IntOp.andi x v reducesTo_S8x64x512_S_d0_1_2 h_S_) main_v6 main_c_1
  let main_v8 : IVec S_ 1 := andi main_v3 main_v7
  let main_v9 : FVec F S640x512 .f32 := Host.absf main_arg2
  let main_cst_2 : FVec F S_ .f32 := constant S_ .f32 0x7F800000#32
  let main_v10 : FVec F S640x512 .f32 := broadcastInDim S640x512 ![] bcast_S_S640x512 main_cst_2
  let main_v11 : IVec S640x512 1 := cmpf .olt main_v9 main_v10
  let main_c_3 : IVec S_ 1 := constantI S_ 1 1#1
  let main_v12 : IVec S_ 1 := (fun x v => Host.reduce IntOp.andi x v reducesTo_S640x512_S_d0_1 h_S_) main_v11 main_c_3
  let main_v13 : IVec S_ 1 := andi main_v8 main_v12
  let main_v14 : FVec F S640x512 .f32 := Host.absf main_arg3
  let main_cst_4 : FVec F S_ .f32 := constant S_ .f32 0x7F800000#32
  let main_v15 : FVec F S640x512 .f32 := broadcastInDim S640x512 ![] bcast_S_S640x512 main_cst_4
  let main_v16 : IVec S640x512 1 := cmpf .olt main_v14 main_v15
  fn_part1 (F := F) main_arg4 main_v13 main_v16
-- ==== Kernel.lean ====
abbrev S8x256x512 : Shape := ⟨3, ![8, 256, 512]⟩
abbrev S8x64x512 : Shape := ⟨3, ![8, 64, 512]⟩
abbrev S640x512 : Shape := ⟨2, ![640, 512]⟩
abbrev S1024x640 : Shape := ⟨2, ![1024, 640]⟩
abbrev S512x640 : Shape := ⟨2, ![512, 640]⟩
abbrev S640x1024 : Shape := ⟨2, ![640, 1024]⟩
abbrev S8x256x64x1024 : Shape := ⟨4, ![8, 256, 64, 1024]⟩
abbrev S1x16x512 : Shape := ⟨3, ![1, 16, 512]⟩
abbrev S1x64x512 : Shape := ⟨3, ![1, 64, 512]⟩
abbrev S1x16x64x1024 : Shape := ⟨4, ![1, 16, 64, 1024]⟩
abbrev S16x512 : Shape := ⟨2, ![16, 512]⟩
abbrev S64x512 : Shape := ⟨2, ![64, 512]⟩
abbrev S16x640 : Shape := ⟨2, ![16, 640]⟩
abbrev S64x640 : Shape := ⟨2, ![64, 640]⟩
abbrev S16x1x640 : Shape := ⟨3, ![16, 1, 640]⟩
abbrev S1x64x640 : Shape := ⟨3, ![1, 64, 640]⟩
abbrev S16x64x640 : Shape := ⟨3, ![16, 64, 640]⟩
abbrev S1024x1024 : Shape := ⟨2, ![1024, 1024]⟩
abbrev S16x64x1024 : Shape := ⟨3, ![16, 64, 1024]⟩

abbrev nBuf : Space → Nat
  | .hbm => 12
  | .vmem => 9
  | .smem => 0
  | _ => 0

abbrev bufTy : (tb : Table) → Fin (tcTables nBuf tb) → BufTy
  | .hbm, ⟨0, _⟩ => ⟨S8x256x512, .f32⟩
  | .hbm, ⟨1, _⟩ => ⟨S8x64x512, .f32⟩
  | .hbm, ⟨2, _⟩ => ⟨S640x512, .f32⟩
  | .hbm, ⟨3, _⟩ => ⟨S640x512, .f32⟩
  | .hbm, ⟨4, _⟩ => ⟨S1024x640, .f32⟩
  | .hbm, ⟨5, _⟩ => ⟨S512x640, .f32⟩
  | .hbm, ⟨6, _⟩ => ⟨S512x640, .bf16⟩
  | .hbm, ⟨7, _⟩ => ⟨S512x640, .f32⟩
  | .hbm, ⟨8, _⟩ => ⟨S512x640, .bf16⟩
  | .hbm, ⟨9, _⟩ => ⟨S640x1024, .f32⟩
  | .hbm, ⟨10, _⟩ => ⟨S640x1024, .bf16⟩
  | .hbm, ⟨11, _⟩ => ⟨S8x256x64x1024, .f32⟩
  | .local _ .vmem, ⟨0, _⟩ => ⟨S1x16x512, .f32⟩
  | .local _ .vmem, ⟨1, _⟩ => ⟨S1x16x512, .f32⟩
  | .local _ .vmem, ⟨2, _⟩ => ⟨S1x64x512, .f32⟩
  | .local _ .vmem, ⟨3, _⟩ => ⟨S1x64x512, .f32⟩
  | .local _ .vmem, ⟨4, _⟩ => ⟨S512x640, .bf16⟩
  | .local _ .vmem, ⟨5, _⟩ => ⟨S512x640, .bf16⟩
  | .local _ .vmem, ⟨6, _⟩ => ⟨S640x1024, .bf16⟩
  | .local _ .vmem, ⟨7, _⟩ => ⟨S1x16x64x1024, .f32⟩
  | .local _ .vmem, ⟨8, _⟩ => ⟨S1x16x64x1024, .f32⟩
  | _, _ => ⟨S8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S640x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x16x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S640x512_S512x640_1_0 : S640x512.Transposes [1, 0] S512x640
  bitsLt_bf16_f32 : FTy.bits .bf16 < FTy.bits .f32
  transposes_S1024x640_S640x1024_1_0 : S1024x640.Transposes [1, 0] S640x1024
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S512x640_S512x640_0_0 : ∀ a, (![0, 0] : Fin 2 → Nat) a + S512x640.size a ≤ S512x640.size a
  h_S512x640 : 0 < S512x640.numel
  shapeCasts_S512x640_S512x640 : S512x640.ShapeCasts S512x640
  inb_S640x1024_S640x1024_0_0 : ∀ a, (![0, 0] : Fin 2 → Nat) a + S640x1024.size a ≤ S640x1024.size a
  h_S640x1024 : 0 < S640x1024.numel
  shapeCasts_S640x1024_S640x1024 : S640x1024.ShapeCasts S640x1024
  shapeCasts_S16x640_S16x1x640 : S16x640.ShapeCasts S16x1x640
  shapeCasts_S64x640_S1x64x640 : S64x640.ShapeCasts S1x64x640
  broadcasts_S16x1x640_S16x64x640 : S16x1x640.Broadcasts S16x64x640
  broadcasts_S1x64x640_S16x64x640 : S1x64x640.Broadcasts S16x64x640
  shapeCasts_S16x64x640_S1024x640 : S16x64x640.ShapeCasts S1024x640
  shapeCasts_S1024x1024_S16x64x1024 : S1024x1024.ShapeCasts S16x64x1024
  inb_S1x16x64x1024_S1x16x64x1024_0_0_0_0 : ∀ a, (![0, 0, 0, 0] : Fin 4 → Nat) a + S1x16x64x1024.size a ≤ S1x16x64x1024.size a
  h_S1x16x64x1024 : 0 < S1x16x64x1024.numel
  shapeCasts_S1x16x64x1024_S16x64x1024 : S1x16x64x1024.ShapeCasts S16x64x1024
  shapeCasts_S16x64x1024_S1x16x64x1024 : S16x64x1024.ShapeCasts S1x16x64x1024
  dot_S16x512_S512x640_S16x640_1_0_0_1_n_n_wf : DotDims.WF S16x512 S512x640 S16x640 [1] [0] [0] [1] [] []
  dot_S64x512_S512x640_S64x640_1_0_0_1_n_n_wf : DotDims.WF S64x512 S512x640 S64x640 [1] [0] [0] [1] [] []
  dot_S1024x640_S640x1024_S1024x1024_1_0_0_1_n_n_wf : DotDims.WF S1024x640 S640x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x512.size a ≤ S8x256x512.size a
  hwx0_0 : ∀ i : grid0.Coords, EltTy.bits .f32 = 32 ∨ (Rect.block (s := S8x256x512) S1x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S8x64x512.size a
  hwx0_1 : ∀ i : grid0.Coords, EltTy.bits .f32 = 32 ∨ (Rect.block (s := S8x64x512) S1x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x640.size a ≤ S512x640.size a
  hwx0_2 : ∀ i : grid0.Coords, EltTy.bits .bf16 = 32 ∨ (Rect.block (s := S512x640) S512x640.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x640.size a ≤ S512x640.size a
  hwx0_3 : ∀ i : grid0.Coords, EltTy.bits .bf16 = 32 ∨ (Rect.block (s := S512x640) S512x640.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S640x1024.size a ≤ S640x1024.size a
  hwx0_4 : ∀ i : grid0.Coords, EltTy.bits .bf16 = 32 ∨ (Rect.block (s := S640x1024) S640x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x64x1024.size a ≤ S8x256x64x1024.size a
  hwx0_5 : ∀ i : grid0.Coords, EltTy.bits .f32 = 32 ∨ (Rect.block (s := S8x256x64x1024) S1x16x64x1024.size (cc0_transform_5 i) (hinb0_5 i)).WholeWords (EltTy.packing .f32)

variable [Facts₀]

def dot_S16x512_S512x640_S16x640_1_0_0_1_n_n : DotDims S16x512 S512x640 S16x640 where
  lhsContracting := [1]
  rhsContracting := [0]
  lhsNonContracting := [0]
  rhsNonContracting := [1]
  lhsBatch := []
  rhsBatch := []
  wf := dot_S16x512_S512x640_S16x640_1_0_0_1_n_n_wf
def dot_S64x512_S512x640_S64x640_1_0_0_1_n_n : DotDims S64x512 S512x640 S64x640 where
  lhsContracting := [1]
  rhsContracting := [0]
  lhsNonContracting := [0]
  rhsNonContracting := [1]
  lhsBatch := []
  rhsBatch := []
  wf := dot_S64x512_S512x640_S64x640_1_0_0_1_n_n_wf
def dot_S1024x640_S640x1024_S1024x1024_1_0_0_1_n_n : DotDims S1024x640 S640x1024 S1024x1024 where
  lhsContracting := [1]
  rhsContracting := [0]
  lhsNonContracting := [0]
  rhsNonContracting := [1]
  lhsBatch := []
  rhsBatch := []
  wf := dot_S1024x640_S640x1024_S1024x1024_1_0_0_1_n_n_wf

abbrev win0_0 : Pipeline.Window sig grid0 :=
  Pipeline.Window.ofSpec (Memref.whole main_arg0) S1x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S640x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x16x64x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x256x512 : Shape := ⟨3, ![8, 256, 512]⟩
abbrev S8x64x512 : Shape := ⟨3, ![8, 64, 512]⟩
abbrev S640x512 : Shape := ⟨2, ![640, 512]⟩
abbrev S1024x640 : Shape := ⟨2, ![1024, 640]⟩
abbrev S8x256x640 : Shape := ⟨3, ![8, 256, 640]⟩
abbrev S8x64x640 : Shape := ⟨3, ![8, 64, 640]⟩
abbrev S8x256x1x640 : Shape := ⟨4, ![8, 256, 1, 640]⟩
abbrev S8x1x64x640 : Shape := ⟨4, ![8, 1, 64, 640]⟩
abbrev S8x256x64x640 : Shape := ⟨4, ![8, 256, 64, 640]⟩
abbrev S_ : Shape := ⟨0, ![]⟩
abbrev S8x256x64x1024 : Shape := ⟨4, ![8, 256, 64, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S8x64x512, .f32⟩
  | .hbm, ⟨2, _⟩ => ⟨S640x512, .f32⟩
  | .hbm, ⟨3, _⟩ => ⟨S640x512, .f32⟩
  | .hbm, ⟨4, _⟩ => ⟨S1024x640, .f32⟩
  | .hbm, ⟨5, _⟩ => ⟨S8x256x640, .f32⟩
  | .hbm, ⟨6, _⟩ => ⟨S8x64x640, .f32⟩
  | .hbm, ⟨7, _⟩ => ⟨S8x256x1x640, .f32⟩
  | .hbm, ⟨8, _⟩ => ⟨S8x1x64x640, .f32⟩
  | .hbm, ⟨9, _⟩ => ⟨S8x256x64x640, .f32⟩
  | .hbm, ⟨10, _⟩ => ⟨S8x256x64x640, .f32⟩
  | .hbm, ⟨11, _⟩ => ⟨S8x256x64x640, .f32⟩
  | .hbm, ⟨12, _⟩ => ⟨S8x256x64x640, .f32⟩
  | .hbm, ⟨13, _⟩ => ⟨S8x256x64x640, .f32⟩
  | .hbm, ⟨14, _⟩ => ⟨S_, .f32⟩
  | .hbm, ⟨15, _⟩ => ⟨S8x256x64x640, .f32⟩
  | .hbm, ⟨16, _⟩ => ⟨S8x256x64x640, .f32⟩
  | .hbm, ⟨17, _⟩ => ⟨S_, .f32⟩
  | .hbm, ⟨18, _⟩ => ⟨S8x256x64x640, .f32⟩
  | .hbm, ⟨19, _⟩ => ⟨S8x256x64x640, .f32⟩
  | .hbm, ⟨20, _⟩ => ⟨S8x256x64x640, .f32⟩
  | .hbm, ⟨21, _⟩ => ⟨S8x256x64x1024, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S8x256x640_S8x256x1x640_0_1_3 : S8x256x640.BroadcastsInDim S8x256x1x640 (![0, 1, 3] : Fin 3 → Fin S8x256x1x640.rank)
  bcast_S8x64x640_S8x1x64x640_0_2_3 : S8x64x640.BroadcastsInDim S8x1x64x640 (![0, 2, 3] : Fin 3 → Fin S8x1x64x640.rank)
  bcast_S8x256x1x640_S8x256x64x640_0_1_2_3 : S8x256x1x640.BroadcastsInDim S8x256x64x640 (![0, 1, 2, 3] : Fin 4 → Fin S8x256x64x640.rank)
  bcast_S8x1x64x640_S8x256x64x640_0_1_2_3 : S8x1x64x640.BroadcastsInDim S8x256x64x640 (![0, 1, 2, 3] : Fin 4 → Fin S8x256x64x640.rank)
  bcast_S_S8x256x64x640 : S_.BroadcastsInDim S8x256x64x640 (![] : Fin 0 → Fin S8x256x64x640.rank)
  dot_S8x256x512_S640x512_S8x256x640_2_1_01_0_n_n_wf : DotDims.WF S8x256x512 S640x512 S8x256x640 [2] [1] [0, 1] [0] [] []
  dot_S8x64x512_S640x512_S8x64x640_2_1_01_0_n_n_wf : DotDims.WF S8x64x512 S640x512 S8x64x640 [2] [1] [0, 1] [0] [] []
  dot_S8x256x64x640_S1024x640_S8x256x64x1024_3_1_012_0_n_n_wf : DotDims.WF S8x256x64x640 S1024x640 S8x256x64x1024 [3] [1] [0, 1, 2] [0] [] []

variable [Facts₀]

def dot_S8x256x512_S640x512_S8x256x640_2_1_01_0_n_n : DotDims S8x256x512 S640x512 S8x256x640 where
  lhsContracting := [2]
  rhsContracting := [1]
  lhsNonContracting := [0, 1]
  rhsNonContracting := [0]
  lhsBatch := []
  rhsBatch := []
  wf := dot_S8x256x512_S640x512_S8x256x640_2_1_01_0_n_n_wf
def dot_S8x64x512_S640x512_S8x64x640_2_1_01_0_n_n : DotDims S8x64x512 S640x512 S8x64x640 where
  lhsContracting := [2]
  rhsContracting := [1]
  lhsNonContracting := [0, 1]
  rhsNonContracting := [0]
  lhsBatch := []
  rhsBatch := []
  wf := dot_S8x64x512_S640x512_S8x64x640_2_1_01_0_n_n_wf
def dot_S8x256x64x640_S1024x640_S8x256x64x1024_3_1_012_0_n_n : DotDims S8x256x64x640 S1024x640 S8x256x64x1024 where
  lhsContracting := [3]
  rhsContracting := [1]
  lhsNonContracting := [0, 1, 2]
  rhsNonContracting := [0]
  lhsBatch := []
  rhsBatch := []
  wf := dot_S8x256x64x640_S1024x640_S8x256x64x1024_3_1_012_0_n_n_wf

class Facts : Prop extends Facts₀ where

variable [Facts]
-- ==== Proof.JoinerSpec.lean ====
/-
  The joiner's result as one function of its five argument arrays, over the extended reals.

  An encoder array `enc[b, t, ·]` and a predictor array `pred[b, u, ·]` are each projected by a linear map onto a joint
  axis `j`; for every pair `(t, u)` the two projections are added, passed through `x ↦ x · (1 / (1 + e^(−x)))`, and
  projected by a third linear map onto the output axis `v`:

    out[b, t, u, v] = ∑ j, σ(∑ e, enc[b, t, e] · wE[j, e] + ∑ d, pred[b, u, d] · wP[j, d]) · wO[v, j].

  Both programs compute this function; neither side needs more than reading its own operations at an index, so no law of
  the extended reals beyond `0 − x = −x` enters.
-/
import Idealize.ShloMosaic.PureOps.Ideal
import Idealize.ShloMosaic.Lib.ValueIdx

noncomputable section

namespace Cert.Joiner

open Idealize.ShloMosaic Idealize.ShloMosaic.ValueIdx
open scoped BigOperators

/-- The number one, as both programs write it: the binary32 word of `1.0`. It is never evaluated: each side divides
    that word by that word plus an exponential. -/
abbrev one : EReal := Ideal.ofBits .f32 0x3F800000#32

/-- `x · (1 / (1 + e^(−x)))` on the extended reals. -/
def silu (x : EReal) : EReal := x * Ideal.div one (one + Ideal.exp (-x))

/-- The joint activation before the nonlinearity: row `(b, t)` of the encoder array against row `j` of its weights, plus
    row `(b, u)` of the predictor array against row `j` of its weights. -/
def joint (enc : (⟨3, ![8, 256, 512]⟩ : Shape).Idx → EReal) (pred : (⟨3, ![8, 64, 512]⟩ : Shape).Idx → EReal)
    (wE wP : (⟨2, ![640, 512]⟩ : Shape).Idx → EReal) (b : Fin 8) (t : Fin 256) (u : Fin 64) (j : Fin 640) : EReal :=
  (∑ e : Fin 512, enc (ix3 b t e) * wE (ix2 j e)) + ∑ d : Fin 512, pred (ix3 b u d) * wP (ix2 j d)

/-- One entry of the result, by its four coordinates. -/
def resultAt (enc : (⟨3, ![8, 256, 512]⟩ : Shape).Idx → EReal) (pred : (⟨3, ![8, 64, 512]⟩ : Shape).Idx → EReal)
    (wE wP : (⟨2, ![640, 512]⟩ : Shape).Idx → EReal) (wO : (⟨2, ![1024, 640]⟩ : Shape).Idx → EReal)
    (b : Fin 8) (t : Fin 256) (u : Fin 64) (v : Fin 1024) : EReal :=
  ∑ j : Fin 640, silu (joint enc pred wE wP b t u j) * wO (ix2 v j)

/-- The whole result array. -/
def result (enc : (⟨3, ![8, 256, 512]⟩ : Shape).Idx → EReal) (pred : (⟨3, ![8, 64, 512]⟩ : Shape).Idx → EReal)
    (wE wP : (⟨2, ![640, 512]⟩ : Shape).Idx → EReal) (wO : (⟨2, ![1024, 640]⟩ : Shape).Idx → EReal) :
    (⟨4, ![8, 256, 64, 1024]⟩ : Shape).Idx → EReal :=
  fun i => resultAt enc pred wE wP wO (i 0) (i 1) (i 2) (i 3)

theorem result_ix4 (enc : (⟨3, ![8, 256, 512]⟩ : Shape).Idx → EReal) (pred : (⟨3, ![8, 64, 512]⟩ : Shape).Idx → EReal)
    (wE wP : (⟨2, ![640, 512]⟩ : Shape).Idx → EReal) (wO : (⟨2, ![1024, 640]⟩ : Shape).Idx → EReal)
    (b : Fin 8) (t : Fin 256) (u : Fin 64) (v : Fin 1024) :
    result enc pred wE wP wO (ix4 b t u v) = resultAt enc pred wE wP wO b t u v := rfl

end Cert.Joiner

end
-- ==== Proof.LibOuterLayout.lean ====
/-
  The layout steps of an outer combination `a[:, None, :] ∘ b[None, :, :]` read at coordinates.

  Two matrices `[a, c]` and `[b, c]` are combined over every pair of rows by giving the first a unit middle axis
  (`[a, 1, c]`), the second a unit leading axis (`[1, b, c]`), and laying both over `[a, b, c]`. Read at `(p, q, r)`
  the first is row `p` of its matrix at column `r` and the second row `q` of its matrix at column `r`. The leading
  unit axis (`[b, c]` viewed as `[1, b, c]`) is the library's `shapeCast_ab_1ab_apply`; here are the middle unit axis
  and the two broadcasts, each with every index written by its coordinates.
-/
import Idealize.ShloMosaic.Lib.ValueLayout

namespace OuterLayout

open Idealize.ShloMosaic Idealize.ShloMosaic.ValueIdx

variable {α : Type}

/-- An `[a, c]` array viewed as `[a, 1, c]` reads, at `(i, u, j)`, the operand at `(i, j)`: the two indices have
    the same row-major position, `i * c + j`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, 1, c]` array laid over `[a, b, c]` reads, at `(p, q, r)`, the operand at `(p, 0, r)`: the middle
    coordinate is forgotten. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A `[1, b, c]` array laid over `[a, b, c]` reads, at `(p, q, r)`, the operand at `(0, q, r)`: the leading
    coordinate is forgotten. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

end OuterLayout
-- ==== Proof.LibRank3Layout.lean ====
/-
  Layout operations between vectors, matrices and rank-three arrays, read at an index given by coordinates: a matrix
  `[a, b]` viewed as `[a, b, 1]` and laid along a third axis; a vector `[c]` viewed as `[1, 1, c]` and laid over the first
  two axes; a vector `[a]` viewed as a column `[a, 1]` and laid over the columns of `[a, b]`; an array `[a, b, c]` flattened
  to the matrix `[a·b, c]` whose row `p·b + q` is the fibre `(p, q, ·)`, and back; and the index a sum over one axis of a
  rank-three array, or over the columns of a matrix, inserts.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Rank3Layout

open Idealize.ShloMosaic Idealize.ShloMosaic.ValueIdx

variable {α : Type}

/-- A matrix `[a, b]` viewed as `[a, b, 1]` reads, at `(p, q, u)`, the matrix at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- A vector `[c]` viewed as `[1, 1, c]` reads, at `(u, v, k)`, the vector at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * c + k.val
    simp [hu, hv])

/-- An array `[a, b, 1]` laid along a third axis of extent `c` reads, at `(p, q, k)`, the array at `(p, q, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ x h (ix3 p q k) = x (ix3 p q (0 : Fin 1)) := by
  refine broadcastTo_apply x h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An array `[1, 1, c]` laid over two leading axes of extents `a` and `b` reads, at `(p, q, k)`, the array at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ x h (ix3 p q k) = x (ix3 (0 : Fin 1) (0 : Fin 1) k) := by
  refine broadcastTo_apply x h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A vector `[c]` viewed as `[1, 1, c]` and laid over `[a, b, c]` reads, at `(p, q, k)`, the vector at `k`. -/
theorem fibreVector_apply {a b c : ℕ} (x : (⟨1, ![c]⟩ : Shape).Idx → α)
    (h1 : (⟨1, ![c]⟩ : Shape).ShapeCasts ⟨3, ![1, 1, c]⟩) (h2 : (⟨3, ![1, 1, c]⟩ : Shape).Broadcasts ⟨3, ![a, b, c]⟩)
    (p : Fin a) (q : Fin b) (k : Fin c) :
    broadcastTo ⟨3, ![a, b, c]⟩ (shapeCast ⟨3, ![1, 1, c]⟩ x h1) h2 (ix3 p q k) = x (ix1 k) :=
  (broadcastTo_11c_abc_apply _ h2 p q k).trans (shapeCast_c_11c_apply x h1 0 0 k)

/-- A matrix `[a, b]` viewed as `[a, b, 1]` and laid along a third axis reads, at `(p, q, k)`, the matrix at `(p, q)`. -/
theorem alongThird_apply {a b c : ℕ} (x : (⟨2, ![a, b]⟩ : Shape).Idx → α)
    (h1 : (⟨2, ![a, b]⟩ : Shape).ShapeCasts ⟨3, ![a, b, 1]⟩) (h2 : (⟨3, ![a, b, 1]⟩ : Shape).Broadcasts ⟨3, ![a, b, c]⟩)
    (p : Fin a) (q : Fin b) (k : Fin c) :
    broadcastTo ⟨3, ![a, b, c]⟩ (shapeCast ⟨3, ![a, b, 1]⟩ x h1) h2 (ix3 p q k) = x (ix2 p q) :=
  (broadcastTo_ab1_abc_apply _ h2 p q k).trans (shapeCast_ab_ab1_apply x h1 p q 0)

/-- A vector `[a]` viewed as a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` laid over `b` columns reads, at `(p, q)`, the column at row `p`. -/
theorem broadcastTo_a1_ab_apply {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) := by
  refine broadcastTo_apply x h (ix2 p q) (ix2 p (0 : Fin 1)) fun ax => ?_
  match ax with
  | ⟨0, _⟩ =>
    show p.val = if a = 1 then 0 else p.val
    split
    · have := p.isLt; omega
    · rfl
  | ⟨1, _⟩ => rfl

/-- A vector `[a]` viewed as a column and laid over the columns of `[a, b]` reads, at `(p, q)`, the vector at `p`. -/
theorem columnVector_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ x h1) h2 (ix2 p q) = x (ix1 p) :=
  (broadcastTo_a1_ab_apply _ h2 p q).trans (shapeCast_a_a1_apply x h1 p 0)

/-- An array `[a, b, c]` flattened to a matrix of `n = a·b` rows reads, at row `r = p·b + q` and column `k`, the array at
    `(p, q, k)`. -/
theorem shapeCast_abc_flat_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) : shapeCast ⟨2, ![n, c]⟩ x h (ix2 r k) = x (ix3 p q k) :=
  shapeCast_apply x h _ _ (by
    rw [Shape.rowMajor_val_two, Shape.rowMajor_val_three]
    show (p.val * b + q.val) * c + k.val = r.val * c + k.val
    rw [hr])

/-- A matrix of `n = a·b` rows unflattened to `[a, b, c]` reads, at `(p, q, k)`, the matrix at row `r = p·b + q`, column `k`. -/
theorem shapeCast_flat_abc_apply {a b c n : ℕ} (x : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) : shapeCast ⟨3, ![a, b, c]⟩ x h (ix3 p q k) = x (ix2 r k) :=
  shapeCast_apply x h _ _ (by
    rw [Shape.rowMajor_val_two, Shape.rowMajor_val_three]
    show r.val * c + k.val = (p.val * b + q.val) * c + k.val
    rw [hr])

end Cert.Rank3Layout

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.KernelPayload.lean ====
/-
  What one grid point's body computes, read at an index.

  The body holds a block of 16 encoder rows, the batch's 64 predictor rows and the three weight matrices already
  transposed, so each of its three products is a plain `[M, K] · [K, N]` contraction. The encoder rows get a unit middle
  axis and the predictor rows a unit leading axis, both are laid over `[16, 64, 640]` and added; the nonlinearity is
  applied entry by entry; the `[16, 64, 640]` array is flattened to `[1024, 640]` (row `64·p + u`), multiplied by the
  output weights and unflattened. Read at `(p, u, v)` this is
  `∑ j, σ(∑ e, enc[p, e] · wEᵀ[e, j] + ∑ d, pred[u, d] · wPᵀ[d, j]) · wOᵀ[j, v]`.
-/
import proofs.«120669_j12249246729036_1_alg».proof.Proof.Gen.KernelIdeal.Skeleton
import proofs.«120669_j12249246729036_1_alg».proof.Proof.JoinerSpec
import proofs.«120669_j12249246729036_1_alg».proof.Proof.LibOuterLayout
import proofs.«120669_j12249246729036_1_alg».proof.Proof.LibRank3Layout
import proofs.«120669_j12249246729036_1_alg».proof.Proof.LibDenseRows
import Idealize.ShloMosaic.Lib.ValueLayout
import Idealize.ShloMosaic.Lib.KernelVsHost
import Idealize.ShloMosaic.Lib.Pipeline.Value

noncomputable section

namespace Cert.Joiner.Ker

open Cert.KernelIdeal Cert.KernelIdeal.Gen Idealize.ShloMosaic Idealize.ShloMosaic.ValueIdx Cert.Joiner
open scoped BigOperators

/-! ## The three products' dimension numbers keep the left rows and the right columns in place -/

theorem encDot_lhs0 (j : S16x640.Idx) (k : dot_S16x512_S512x640_S16x640_1_0_0_1_n_n.contr.Idx) : (dot_S16x512_S512x640_S16x640_1_0_0_1_n_n.lhsIdx j k (0 : Fin 2)).val = (j (0 : Fin 2)).val := by
  unfold DotDims.lhsIdx
  rw [dif_neg (show ¬(0 : Fin S16x512.rank) ∈ dot_S16x512_S512x640_S16x640_1_0_0_1_n_n.lhsBatch by decide), dif_pos (show (0 : Fin S16x512.rank) ∈ dot_S16x512_S512x640_S16x640_1_0_0_1_n_n.lhsNonContracting by decide)]
  rfl

theorem encDot_rhs1 (j : S16x640.Idx) (k : dot_S16x512_S512x640_S16x640_1_0_0_1_n_n.contr.Idx) : (dot_S16x512_S512x640_S16x640_1_0_0_1_n_n.rhsIdx j k (1 : Fin 2)).val = (j (1 : Fin 2)).val := by
  unfold DotDims.rhsIdx
  rw [dif_neg (show ¬(1 : Fin S512x640.rank) ∈ dot_S16x512_S512x640_S16x640_1_0_0_1_n_n.rhsBatch by decide), dif_pos (show (1 : Fin S512x640.rank) ∈ dot_S16x512_S512x640_S16x640_1_0_0_1_n_n.rhsNonContracting by decide)]
  rfl

theorem predDot_lhs0 (j : S64x640.Idx) (k : dot_S64x512_S512x640_S64x640_1_0_0_1_n_n.contr.Idx) : (dot_S64x512_S512x640_S64x640_1_0_0_1_n_n.lhsIdx j k (0 : Fin 2)).val = (j (0 : Fin 2)).val := by
  unfold DotDims.lhsIdx
  rw [dif_neg (show ¬(0 : Fin S64x512.rank) ∈ dot_S64x512_S512x640_S64x640_1_0_0_1_n_n.lhsBatch by decide), dif_pos (show (0 : Fin S64x512.rank) ∈ dot_S64x512_S512x640_S64x640_1_0_0_1_n_n.lhsNonContracting by decide)]
  rfl

theorem predDot_rhs1 (j : S64x640.Idx) (k : dot_S64x512_S512x640_S64x640_1_0_0_1_n_n.contr.Idx) : (dot_S64x512_S512x640_S64x640_1_0_0_1_n_n.rhsIdx j k (1 : Fin 2)).val = (j (1 : Fin 2)).val := by
  unfold DotDims.rhsIdx
  rw [dif_neg (show ¬(1 : Fin S512x640.rank) ∈ dot_S64x512_S512x640_S64x640_1_0_0_1_n_n.rhsBatch by decide), dif_pos (show (1 : Fin S512x640.rank) ∈ dot_S64x512_S512x640_S64x640_1_0_0_1_n_n.rhsNonContracting by decide)]
  rfl

theorem outDot_lhs0 (j : S1024x1024.Idx) (k : dot_S1024x640_S640x1024_S1024x1024_1_0_0_1_n_n.contr.Idx) : (dot_S1024x640_S640x1024_S1024x1024_1_0_0_1_n_n.lhsIdx j k (0 : Fin 2)).val = (j (0 : Fin 2)).val := by
  unfold DotDims.lhsIdx
  rw [dif_neg (show ¬(0 : Fin S1024x640.rank) ∈ dot_S1024x640_S640x1024_S1024x1024_1_0_0_1_n_n.lhsBatch by decide), dif_pos (show (0 : Fin S1024x640.rank) ∈ dot_S1024x640_S640x1024_S1024x1024_1_0_0_1_n_n.lhsNonContracting by decide)]
  rfl

theorem outDot_rhs1 (j : S1024x1024.Idx) (k : dot_S1024x640_S640x1024_S1024x1024_1_0_0_1_n_n.contr.Idx) : (dot_S1024x640_S640x1024_S1024x1024_1_0_0_1_n_n.rhsIdx j k (1 : Fin 2)).val = (j (1 : Fin 2)).val := by
  unfold DotDims.rhsIdx
  rw [dif_neg (show ¬(1 : Fin S640x1024.rank) ∈ dot_S1024x640_S640x1024_S1024x1024_1_0_0_1_n_n.rhsBatch by decide), dif_pos (show (1 : Fin S640x1024.rank) ∈ dot_S1024x640_S640x1024_S1024x1024_1_0_0_1_n_n.rhsNonContracting by decide)]
  rfl

/-! ## The two projections -/

/-- The encoder block (its unit batch axis dropped) against the transposed encoder weights, at `(p, j)`. -/
theorem encProj_apply (x0 : Vec Ideal S1x16x512 .f32) (x2 : Vec Ideal S512x640 .bf16) (p : Fin 16) (j : Fin 640) :
    matmul dot_S16x512_S512x640_S16x640_1_0_0_1_n_n none
        (truncf .bf16 (shapeCast S16x512 x0 shapeCasts_S1x16x512_S16x512) bitsLt_bf16_f32)
        (shapeCast S512x640 x2 shapeCasts_S512x640_S512x640 : FVec Ideal S512x640 .bf16) (constant (F := Ideal) S16x640 .f32 0x00000000#32) (ix2 p j)
      = ∑ e : Fin 512, x0 (ix3 (0 : Fin 1) p e) * x2 (ix2 e j) := by
  refine (DenseRows.matmul_zero_plain_apply dot_S16x512_S512x640_S16x640_1_0_0_1_n_n rfl rfl rfl rfl encDot_lhs0 encDot_rhs1 _ _ p j).trans ?_
  refine Finset.sum_congr rfl fun e _ => ?_
  rw [truncf_apply, shapeCast_1ab_ab_apply, shapeCast_self]

/-- The predictor block (its unit batch axis dropped) against the transposed predictor weights, at `(u, j)`. -/
theorem predProj_apply (x1 : Vec Ideal S1x64x512 .f32) (x3 : Vec Ideal S512x640 .bf16) (u : Fin 64) (j : Fin 640) :
    matmul dot_S64x512_S512x640_S64x640_1_0_0_1_n_n none
        (truncf .bf16 (shapeCast S64x512 x1 shapeCasts_S1x64x512_S64x512) bitsLt_bf16_f32)
        (shapeCast S512x640 x3 shapeCasts_S512x640_S512x640 : FVec Ideal S512x640 .bf16) (constant (F := Ideal) S64x640 .f32 0x00000000#32) (ix2 u j)
      = ∑ d : Fin 512, x1 (ix3 (0 : Fin 1) u d) * x3 (ix2 d j) := by
  refine (DenseRows.matmul_zero_plain_apply dot_S64x512_S512x640_S64x640_1_0_0_1_n_n rfl rfl rfl rfl predDot_lhs0 predDot_rhs1 _ _ u j).trans ?_
  refine Finset.sum_congr rfl fun d _ => ?_
  rw [truncf_apply, shapeCast_1ab_ab_apply, shapeCast_self]

/-! ## Every encoder row against every predictor row -/

/-- `A[:, None, :] + B[None, :, :]` at `(p, u, j)`. -/
theorem outerSum_apply (A : FVec Ideal S16x640 .f32) (B : FVec Ideal S64x640 .f32) (p : Fin 16) (u : Fin 64) (j : Fin 640) :
    addf (broadcastTo S16x64x640 (shapeCast S16x1x640 A shapeCasts_S16x640_S16x1x640) broadcasts_S16x1x640_S16x64x640)
        (broadcastTo S16x64x640 (shapeCast S1x64x640 B shapeCasts_S64x640_S1x64x640) broadcasts_S1x64x640_S16x64x640) (ix3 p u j)
      = A (ix2 p j) + B (ix2 u j) := by
  rw [addf_apply, OuterLayout.broadcastTo_a1c_abc_apply, OuterLayout.shapeCast_ac_a1c_apply,
    OuterLayout.broadcastTo_1bc_abc_apply, shapeCast_ab_1ab_apply]

/-! ## The nonlinearity, entry by entry -/

/-- `x · (1 / (1 + e^(0 − x)))`, as the body spells it, is `silu`: `0 − x = −x` on every extended real. -/
theorem activate_apply (J : FVec Ideal S16x64x640 .f32) (i : S16x64x640.Idx) :
    mulf J (divf (broadcast S16x64x640 (Scalar.ofBits (F := Ideal) .f32 0x3F800000#32))
        (addf (broadcast S16x64x640 (Scalar.ofBits (F := Ideal) .f32 0x3F800000#32))
          (exp (subf (broadcast S16x64x640 (Scalar.ofBits (F := Ideal) .f32 0x00000000#32)) J)))) i
      = silu (J i) := by
  show J i * Ideal.div one (one + Ideal.exp (Ideal.ofBits .f32 0x00000000#32 - J i)) = silu (J i)
  rw [Ideal.ofBits_zero_f32, zero_sub]
  rfl

/-! ## The output product, through the flattening and back -/

/-- The activated array flattened to `[1024, 640]`, multiplied by the transposed output weights and unflattened,
    at `(z, p, u, v)`: row `64·p + u` of the flat matrix is the fibre `(p, u, ·)`. -/
theorem outProj_apply (S : FVec Ideal S16x64x640 .f32) (x4 : Vec Ideal S640x1024 .bf16) (z : Fin 1) (p : Fin 16) (u : Fin 64)
    (v : Fin 1024) :
    shapeCast S1x16x64x1024
        (shapeCast S16x64x1024
          (matmul dot_S1024x640_S640x1024_S1024x1024_1_0_0_1_n_n none
            (truncf .bf16 (shapeCast S1024x640 S shapeCasts_S16x64x640_S1024x640) bitsLt_bf16_f32)
            (shapeCast S640x1024 x4 shapeCasts_S640x1024_S640x1024 : FVec Ideal S640x1024 .bf16) (constant (F := Ideal) S1024x1024 .f32 0x00000000#32))
          shapeCasts_S1024x1024_S16x64x1024)
        shapeCasts_S16x64x1024_S1x16x64x1024 (ix4 z p u v)
      = ∑ j : Fin 640, S (ix3 p u j) * x4 (ix2 j v) := by
  have hr : p.val * 64 + u.val < 1024 := by have := p.isLt; have := u.isLt; omega
  rw [shapeCast_abc_1abc_apply,
    Rank3Layout.shapeCast_flat_abc_apply _ shapeCasts_S1024x1024_S16x64x1024 p u v ⟨p.val * 64 + u.val, hr⟩ rfl]
  refine (DenseRows.matmul_zero_plain_apply dot_S1024x640_S640x1024_S1024x1024_1_0_0_1_n_n rfl rfl rfl rfl outDot_lhs0 outDot_rhs1 _ _ _ v).trans ?_
  refine Finset.sum_congr rfl fun j _ => ?_
  rw [truncf_apply, Rank3Layout.shapeCast_abc_flat_apply _ shapeCasts_S16x64x640_S1024x640 p u j ⟨p.val * 64 + u.val, hr⟩ rfl,
    shapeCast_self]

/-! ## The body's one stored value -/

/-- What the body stores, at `(z, p, u, v)`, from its five loaded blocks. -/
theorem payload_apply (x0 : Vec Ideal S1x16x512 .f32) (x1 : Vec Ideal S1x64x512 .f32) (x2 x3 : Vec Ideal S512x640 .bf16)
    (x4 : Vec Ideal S640x1024 .bf16) (z : Fin 1) (p : Fin 16) (u : Fin 64) (v : Fin 1024) :
    k0_pay1 (F := Ideal) x0 x1 x2 x3 x4 (ix4 z p u v)
      = ∑ j : Fin 640, silu ((∑ e : Fin 512, x0 (ix3 (0 : Fin 1) p e) * x2 (ix2 e j))
            + ∑ d : Fin 512, x1 (ix3 (0 : Fin 1) u d) * x3 (ix2 d j)) * x4 (ix2 j v) := by
  unfold k0_pay1
  refine (outProj_apply _ x4 z p u v).trans (Finset.sum_congr rfl fun j _ => congrArg (· * x4 (ix2 j v)) ?_)
  refine (activate_apply _ (ix3 p u j)).trans (congrArg silu ?_)
  exact (outerSum_apply _ _ p u j).trans (congrArg₂ (· + ·) (encProj_apply x0 x2 p j) (predProj_apply x1 x3 u j))

end Cert.Joiner.Ker

end
-- ==== Proof.KernelValue.lean ====
/-
  The kernel's result array is the specification.

  The grid is `8 × 16`: point `(b, tb)` stages rows `16·tb … 16·tb + 15` of batch `b` of the encoder array, all 64 rows of
  batch `b` of the predictor array and the three whole weight matrices — which the host code before the launch has
  transposed — and writes back the `[1, 16, 64, 1024]` block of the result at block index `(b, tb, 0, 0)`. What it writes
  is that block of the specification, and the 128 blocks tile the result array, so the array ends holding the
  specification.
-/
import proofs.«120669_j12249246729036_1_alg».proof.Proof.Gen.KernelIdeal.Value
import proofs.«120669_j12249246729036_1_alg».proof.Proof.KernelPayload
import Idealize.ShloMosaic.Lib.StableHlo.Run

noncomputable section

namespace Cert.Joiner.Ker

open Cert.KernelIdeal Cert.KernelIdeal.Gen Idealize.ShloMosaic Idealize.ShloMosaic.TcCoe Idealize.SL.Sem
open Idealize.ShloMosaic.ValueIdx Cert.Joiner
open Idealize.ShloMosaic.Pipeline (Dat)
open scoped BigOperators

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-! ## The weight matrices as the launch finds them: transposed by the host code -/

/-- The encoder weights as staged, at `(e, j)`: the argument at `(j, e)`. -/
theorem encWeights_apply (c : Dev nD) (e : Fin 512) (j : Fin 640) :
    (V m c main_v1 : S512x640.Idx → EReal) (ix2 e j) = (m ((c : Thread nD τ).loc main_arg2) : S640x512.Idx → EReal) (ix2 j e) := by
  have h : @Eq (FVec Ideal S512x640 .bf16) (V m c main_v1)
      (truncf (F := Ideal) .bf16 (transpose S512x640 [1, 0] (m ((c : Thread nD τ).loc main_arg2) : FVec Ideal S640x512 .f32) transposes_S640x512_S512x640_1_0)
        bitsLt_bf16_f32) := by
    dsimp only [Gen.V, Gen.hostOps0]; after_results
  rw [h, truncf_apply, transpose_ix2_apply]

/-- The predictor weights as staged, at `(d, j)`: the argument at `(j, d)`. -/
theorem predWeights_apply (c : Dev nD) (d : Fin 512) (j : Fin 640) :
    (V m c main_v3 : S512x640.Idx → EReal) (ix2 d j) = (m ((c : Thread nD τ).loc main_arg3) : S640x512.Idx → EReal) (ix2 j d) := by
  have h : @Eq (FVec Ideal S512x640 .bf16) (V m c main_v3)
      (truncf (F := Ideal) .bf16 (transpose S512x640 [1, 0] (m ((c : Thread nD τ).loc main_arg3) : FVec Ideal S640x512 .f32) transposes_S640x512_S512x640_1_0)
        bitsLt_bf16_f32) := by
    dsimp only [Gen.V, Gen.hostOps0]; after_results
  rw [h, truncf_apply, transpose_ix2_apply]

/-- The output weights as staged, at `(j, v)`: the argument at `(v, j)`. -/
theorem outWeights_apply (c : Dev nD) (j : Fin 640) (v : Fin 1024) :
    (V m c main_v5 : S640x1024.Idx → EReal) (ix2 j v) = (m ((c : Thread nD τ).loc main_arg4) : S1024x640.Idx → EReal) (ix2 v j) := by
  have h : @Eq (FVec Ideal S640x1024 .bf16) (V m c main_v5)
      (truncf (F := Ideal) .bf16 (transpose S640x1024 [1, 0] (m ((c : Thread nD τ).loc main_arg4) : FVec Ideal S1024x640 .f32) transposes_S1024x640_S640x1024_1_0)
        bitsLt_bf16_f32) := by
    dsimp only [Gen.V, Gen.hostOps0]; after_results
  rw [h, truncf_apply, transpose_ix2_apply]

/-! ## The block indices over the grid -/

/-- The printed index maps, decided over the 128 points: the encoder block moves with the result block on its first two
    axes, the predictor block on the first only, the weight matrices do not move, and the result's block index is
    `(b, tb, 0, 0)` with `b < 8`, `tb < 16`. -/
theorem index_facts : ∀ t : Fin cfg0.N,
    win0_0.index t (0 : Fin 3) = win0_5.index t (0 : Fin 4) ∧ win0_0.index t (1 : Fin 3) = win0_5.index t (1 : Fin 4)
    ∧ win0_0.index t (2 : Fin 3) = 0
    ∧ win0_1.index t (0 : Fin 3) = win0_5.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 4) < 8 ∧ win0_5.index t (1 : Fin 4) < 16
    ∧ win0_5.index t (2 : Fin 4) = 0 ∧ win0_5.index t (3 : Fin 4) = 0 :=
  (by decide +kernel : ∀ t : Fin grid0.N, _)

/-- Every block index `(b, tb, 0, 0)` is some point's. -/
theorem index_onto : ∀ (b : Fin 8) (tb : Fin 16), ∃ t : Fin cfg0.N, win0_5.index t = ![b.val, tb.val, 0, 0] :=
  (by decide +kernel : ∀ (b : Fin 8) (tb : Fin 16), ∃ t : Fin grid0.N, win0_5.index t = ![b.val, tb.val, 0, 0])

/-! ## One entry of a block -/

/-- If the five loaded blocks are the rows of the argument arrays that point `(b, tb)` stages, the stored value at `y` is
    the specification at the array index `i` that `y` has in the result's block `(b, tb, 0, 0)`. -/
theorem block_entry (x0 : Vec Ideal S1x16x512 .f32) (x1 : Vec Ideal S1x64x512 .f32) (x2 x3 : Vec Ideal S512x640 .bf16)
    (x4 : Vec Ideal S640x1024 .bf16)
    (enc : FVec Ideal S8x256x512 .f32) (pred : FVec Ideal S8x64x512 .f32) (wE wP : FVec Ideal S640x512 .f32)
    (wO : FVec Ideal S1024x640 .f32) (b : Fin 8) (tb : Fin 16)
    (h0 : ∀ (p : Fin 16) (e : Fin 512),
      x0 (ix3 (0 : Fin 1) p e) = enc (ix3 b ⟨tb.val * 16 + p.val, by have := tb.isLt; have := p.isLt; omega⟩ e))
    (h1 : ∀ (u : Fin 64) (d : Fin 512), x1 (ix3 (0 : Fin 1) u d) = pred (ix3 b u d))
    (h2 : ∀ (e : Fin 512) (j : Fin 640), x2 (ix2 e j) = wE (ix2 j e))
    (h3 : ∀ (d : Fin 512) (j : Fin 640), x3 (ix2 d j) = wP (ix2 j d))
    (h4 : ∀ (j : Fin 640) (v : Fin 1024), x4 (ix2 j v) = wO (ix2 v j))
    (y : S1x16x64x1024.Idx) (i : S8x256x64x1024.Idx)
    (hi0 : (i 0).val = b.val) (hi1 : (i 1).val = tb.val * 16 + (y 1).val) (hi2 : (i 2).val = (y 2).val)
    (hi3 : (i 3).val = (y 3).val) :
    k0_pay1 (F := Ideal) x0 x1 x2 x3 x4 y = result enc pred wE wP wO i := by
  obtain ⟨z, p, u, v, rfl⟩ : ∃ (z : Fin 1) (p : Fin 16) (u : Fin 64) (v : Fin 1024), y = ix4 z p u v :=
    ⟨y 0, y 1, y 2, y 3, eq_ix4 y⟩
  have ei : i = ix4 b ⟨tb.val * 16 + p.val, by have := tb.isLt; have := p.isLt; omega⟩ u v :=
    funext fun a => Fin.ext (by
      match a with
      | ⟨0, _⟩ => exact hi0
      | ⟨1, _⟩ => exact hi1
      | ⟨2, _⟩ => exact hi2
      | ⟨3, _⟩ => exact hi3)
  rw [ei, result_ix4, payload_apply]
  unfold resultAt joint
  simp only [h0, h1, h2, h3, h4]

/-! ## What a grid point writes back -/

/-- Point `t` writes back block `t` of the specification of the argument arrays. -/
theorem flushed_eq (c : Dev nD) (t : Fin cfg0.N) :
    (dats m 0 c).flushed 5 t = ((cfg0.win 5).blk t).view.read (Elt Ideal)
      (result (m ((c : Thread nD τ).loc main_arg0)) (m ((c : Thread nD τ).loc main_arg1)) (m ((c : Thread nD τ).loc main_arg2))
        (m ((c : Thread nD τ).loc main_arg3)) (m ((c : Thread nD τ).loc main_arg4))) := by
  rw [Cert.KernelIdeal.Value.flushed5]
  unfold out0_5
  rw [View.canon_unit_zero zeros4]
  simp only [View.ld_unit_zero (S := S1x16x512) zeros3, View.ld_unit_zero (S := S1x64x512) zeros3,
    View.ld_unit_zero (S := S512x640) zeros2, View.ld_unit_zero (S := S640x1024) zeros2]
  obtain ⟨e00, e01, e02, e10, e11, e12, e20, e21, e30, e31, e40, e41, hb, htb, e52, e53⟩ := index_facts t
  funext y
  show k0_pay1 (F := Ideal) (iblk m c 0 t) (iblk m c 1 t) (iblk m c 2 t) (iblk m c 3 t) (iblk m c 4 t) y
    = result _ _ _ _ _ (((cfg0.win 5).blk t).view.emb y)
  refine block_entry (iblk m c 0 t) (iblk m c 1 t) (iblk m c 2 t) (iblk m c 3 t) (iblk m c 4 t)
    (m ((c : Thread nD τ).loc main_arg0)) (m ((c : Thread nD τ).loc main_arg1)) (m ((c : Thread nD τ).loc main_arg2))
    (m ((c : Thread nD τ).loc main_arg3)) (m ((c : Thread nD τ).loc main_arg4))
    ⟨win0_5.index t (0 : Fin 4), hb⟩ ⟨win0_5.index t (1 : Fin 4), htb⟩ ?_ ?_ ?_ ?_ ?_ y (((cfg0.win 5).blk t).view.emb y) ?_ ?_ ?_ ?_
  · intro p e
    show V m c main_arg0 (((cfg0.win 0).blk t).view.emb (ix3 (0 : Fin 1) p e)) = _
    rw [V_main_arg0]
    refine congrArg _ (funext fun a => Fin.ext ?_)
    match a with
    | ⟨0, _⟩ => show win0_0.index t (0 : Fin 3) * 1 + 1 * 0 = win0_5.index t (0 : Fin 4); omega
    | ⟨1, _⟩ => show win0_0.index t (1 : Fin 3) * 16 + 1 * p.val = win0_5.index t (1 : Fin 4) * 16 + p.val; omega
    | ⟨2, _⟩ => show win0_0.index t (2 : Fin 3) * 512 + 1 * e.val = e.val; omega
  · intro u d
    show V m c main_arg1 (((cfg0.win 1).blk t).view.emb (ix3 (0 : Fin 1) u d)) = _
    rw [V_main_arg1]
    refine congrArg _ (funext fun a => Fin.ext ?_)
    match a with
    | ⟨0, _⟩ => show win0_1.index t (0 : Fin 3) * 1 + 1 * 0 = win0_5.index t (0 : Fin 4); omega
    | ⟨1, _⟩ => show win0_1.index t (1 : Fin 3) * 64 + 1 * u.val = u.val; omega
    | ⟨2, _⟩ => show win0_1.index t (2 : Fin 3) * 512 + 1 * d.val = d.val; omega
  · intro e j
    have hy : ((cfg0.win 2).blk t).view.emb (ix2 e j) = ix2 e j := funext fun a => Fin.ext (by
      match a with
      | ⟨0, _⟩ => show win0_2.index t (0 : Fin 2) * 512 + 1 * e.val = e.val; omega
      | ⟨1, _⟩ => show win0_2.index t (1 : Fin 2) * 640 + 1 * j.val = j.val; omega)
    show V m c main_v1 (((cfg0.win 2).blk t).view.emb (ix2 e j)) = _
    rw [hy]
    exact encWeights_apply m c e j
  · intro d j
    have hy : ((cfg0.win 3).blk t).view.emb (ix2 d j) = ix2 d j := funext fun a => Fin.ext (by
      match a with
      | ⟨0, _⟩ => show win0_3.index t (0 : Fin 2) * 512 + 1 * d.val = d.val; omega
      | ⟨1, _⟩ => show win0_3.index t (1 : Fin 2) * 640 + 1 * j.val = j.val; omega)
    show V m c main_v3 (((cfg0.win 3).blk t).view.emb (ix2 d j)) = _
    rw [hy]
    exact predWeights_apply m c d j
  · intro j v
    have hy : ((cfg0.win 4).blk t).view.emb (ix2 j v) = ix2 j v := funext fun a => Fin.ext (by
      match a with
      | ⟨0, _⟩ => show win0_4.index t (0 : Fin 2) * 640 + 1 * j.val = j.val; omega
      | ⟨1, _⟩ => show win0_4.index t (1 : Fin 2) * 1024 + 1 * v.val = v.val; omega)
    show V m c main_v5 (((cfg0.win 4).blk t).view.emb (ix2 j v)) = _
    rw [hy]
    exact outWeights_apply m c j v
  · show win0_5.index t (0 : Fin 4) * 1 + 1 * (y 0).val = win0_5.index t (0 : Fin 4)
    have := (y 0).isLt
    have h1 : (y 0).val < 1 := (y 0).isLt
    omega
  · show win0_5.index t (1 : Fin 4) * 16 + 1 * (y 1).val = win0_5.index t (1 : Fin 4) * 16 + (y 1).val; omega
  · show win0_5.index t (2 : Fin 4) * 64 + 1 * (y 2).val = (y 2).val; omega
  · show win0_5.index t (3 : Fin 4) * 1024 + 1 * (y 3).val = (y 3).val; omega

/-! ## The blocks tile the result array -/

/-- An index of the result array is in point `t`'s block iff each coordinate is in the block's range on its axis. -/
theorem mem_block (t : Fin cfg0.N) (i : S8x256x64x1024.Idx) :
    i ∈ ((cfg0.win 5).blk t).view.set ↔ ∀ a : Fin 4, win0_5.index t a * S1x16x64x1024.size a ≤ (i a).val
      ∧ (i a).val < win0_5.index t a * S1x16x64x1024.size a + S1x16x64x1024.size a := by
  show i ∈ ((View.whole main_v6).slice (win0_5.rect t)).set ↔ _
  rw [View.set_slice_whole, Rect.mem_set_unit]
  exact Iff.rfl

/-- Every index `(b, r, u, v)` of the result array is in the block of the point `(b, r / 16)`. -/
theorem covered (i : S8x256x64x1024.Idx) :
    ∃ t : Fin cfg0.N, (cfg0.win 5).flush t = true ∧ i ∈ ((cfg0.win 5).blk t).view.set := by
  have hi0 : (i 0).val < 8 := (i 0).isLt
  have hi1 : (i 1).val < 256 := (i 1).isLt
  have hi2 : (i 2).val < 64 := (i 2).isLt
  have hi3 : (i 3).val < 1024 := (i 3).isLt
  obtain ⟨t, ht⟩ := index_onto ⟨(i 0).val, hi0⟩ ⟨(i 1).val / 16, by omega⟩
  have q0 : win0_5.index t (0 : Fin 4) = (i 0).val := congrFun ht 0
  have q1 : win0_5.index t (1 : Fin 4) = (i 1).val / 16 := congrFun ht 1
  have q2 : win0_5.index t (2 : Fin 4) = 0 := congrFun ht 2
  have q3 : win0_5.index t (3 : Fin 4) = 0 := congrFun ht 3
  refine ⟨t, flush0_5 t, ?_⟩
  rw [mem_block]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 16 ≤ (i 1).val ∧ (i 1).val < win0_5.index t (1 : Fin 4) * 16 + 16; omega
  | ⟨2, _⟩ => show win0_5.index t (2 : Fin 4) * 64 ≤ (i 2).val ∧ (i 2).val < win0_5.index t (2 : Fin 4) * 64 + 64; omega
  | ⟨3, _⟩ => show win0_5.index t (3 : Fin 4) * 1024 ≤ (i 3).val ∧ (i 3).val < win0_5.index t (3 : Fin 4) * 1024 + 1024; omega

/-- The result array after the run is the specification of the argument arrays. -/
theorem final (c : Dev nD) : (dats m 0 c).arrAt 5 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (fun t _ => flushed_eq m c t) covered

/-- Every weakly fair execution of the kernel program terminates with the result array at the specification and the
    arguments unchanged. -/
theorem run : θ_run defs (onTc (τ := τ) (main (F := Ideal))) ⟨m, fun _ => 0, ρ⟩ fun r => ∀ c : Dev nD,
      r.2.mem ((c : Thread nD τ).loc main_v6)
        = result (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.Joiner.Ker

end
-- ==== Proof.RefIsSpec.lean ====
/-
  The reference computes the specification.

  Read one operation at a time, the reference's joint activation at `(b, t, u, j)` is its two contractions added (the
  two broadcasts only forget the coordinate they insert), its nonlinearity is `x · (1 / (1 + e^(−x)))` entry by entry, and
  its last contraction sums that against row `v` of the output weights.
-/
import proofs.«120669_j12249246729036_1_alg».proof.Proof.Gen.ReferenceIdeal.Read
import proofs.«120669_j12249246729036_1_alg».proof.Proof.JoinerSpec

noncomputable section

namespace Cert.Joiner.Ref

open Cert.ReferenceIdeal Cert.ReferenceIdeal.Read Idealize.ShloMosaic Idealize.ShloMosaic.ValueIdx Cert.Joiner
open scoped BigOperators

variable (x0 : FVec Ideal S8x256x512 .f32) (x1 : FVec Ideal S8x64x512 .f32) (x2 x3 : FVec Ideal S640x512 .f32)
  (x4 : FVec Ideal S1024x640 .f32)

/-- The sum of the two broadcast projections at `(b, t, u, j)` is the joint activation there. -/
theorem joint_apply (b : Fin 8) (t : Fin 256) (u : Fin 64) (j : Fin 640) :
    val_main_v6 (F := Ideal) x0 x1 x2 x3 (ix4 b t u j) = joint x0 x1 x2 x3 b t u j := by
  rw [val_main_v6_apply, val_main_v4_apply, val_main_v2_apply, val_main_v0_apply, val_main_v5_apply, val_main_v3_apply,
    val_main_v1_apply]
  unfold joint
  refine congrArg₂ (· + ·) (Finset.sum_congr rfl fun k _ => ?_) (Finset.sum_congr rfl fun k _ => ?_)
  · have e1 : lidx_main_v0 (idx_main_v2 (idx_main_v4 (ix4 b t u j))) k = ix3 b t k :=
      funext fun a => Fin.ext (by match a with | ⟨0, _⟩ => rfl | ⟨1, _⟩ => rfl | ⟨2, _⟩ => rfl)
    have e2 : ridx_main_v0 (idx_main_v2 (idx_main_v4 (ix4 b t u j))) k = ix2 j k :=
      funext fun a => Fin.ext (by match a with | ⟨0, _⟩ => rfl | ⟨1, _⟩ => rfl)
    rw [e1, e2]
  · have e1 : lidx_main_v1 (idx_main_v3 (idx_main_v5 (ix4 b t u j))) k = ix3 b u k :=
      funext fun a => Fin.ext (by match a with | ⟨0, _⟩ => rfl | ⟨1, _⟩ => rfl | ⟨2, _⟩ => rfl)
    have e2 : ridx_main_v1 (idx_main_v3 (idx_main_v5 (ix4 b t u j))) k = ix2 j k :=
      funext fun a => Fin.ext (by match a with | ⟨0, _⟩ => rfl | ⟨1, _⟩ => rfl)
    rw [e1, e2]

/-- The activated joint array at `(b, t, u, j)`: negate, exponentiate, add one, divide one by it, multiply back. -/
theorem activated_apply (b : Fin 8) (t : Fin 256) (u : Fin 64) (j : Fin 640) :
    val_main_v13 (F := Ideal) x0 x1 x2 x3 (ix4 b t u j) = silu (joint x0 x1 x2 x3 b t u j) := by
  rw [val_main_v13_apply, val_main_v12_apply, val_main_v11_apply, val_main_cst_0_apply, val_main_v10_apply,
    val_main_v9_apply, val_main_cst_apply, val_main_v8_apply, val_main_v7_apply, joint_apply]
  rfl

/-- The reference's result is the specification. -/
theorem result_eq : val_main_v14 (F := Ideal) x0 x1 x2 x3 x4 = result x0 x1 x2 x3 x4 := by
  funext i
  obtain ⟨b, t, u, v, rfl⟩ : ∃ (b : Fin 8) (t : Fin 256) (u : Fin 64) (v : Fin 1024), i = ix4 b t u v :=
    ⟨i 0, i 1, i 2, i 3, eq_ix4 i⟩
  rw [val_main_v14_apply, result_ix4]
  unfold resultAt
  refine Finset.sum_congr rfl fun k _ => ?_
  have e1 : lidx_main_v14 (ix4 b t u v) k = ix4 b t u k :=
    funext fun a => Fin.ext (by match a with | ⟨0, _⟩ => rfl | ⟨1, _⟩ => rfl | ⟨2, _⟩ => rfl | ⟨3, _⟩ => rfl)
  have e2 : ridx_main_v14 (ix4 b t u v) k = ix2 v k :=
    funext fun a => Fin.ext (by match a with | ⟨0, _⟩ => rfl | ⟨1, _⟩ => rfl)
  rw [e1, e2, activated_apply]

end Cert.Joiner.Ref

end
-- ==== Proof.lean ====
/-
  A fused joiner kernel against its plain reference, over the extended reals.

  Both programs compute, for an encoder array `enc[b, t, ·]`, a predictor array `pred[b, u, ·]` and three weight matrices,

    out[b, t, u, v] = ∑ j, σ(∑ e, enc[b, t, e] · wE[j, e] + ∑ d, pred[b, u, d] · wP[j, d]) · wO[v, j],   σ(x) = x · (1 / (1 + e^(−x))).

  The reference contracts against the weights as given and broadcasts the two projections over the `(t, u)` pairs. The
  kernel transposes the weights beforehand, walks an `8 × 16` grid of blocks of 16 encoder rows, and in each block forms
  the sum of every encoder row with every predictor row, applies `σ` (spelling `−x` as `0 − x`), flattens the pairs
  to rows, multiplies by the transposed output weights and unflattens. Read index by index each side is the formula above
  (`Cert.Joiner.result`): the kernel block by block, the blocks tiling the result array (`Cert.Joiner.Ker.run`), the
  reference one operation at a time (`Cert.Joiner.Ref.result_eq`). The sums are taken over the same index sets in the same
  form on both sides, so no rearrangement and no finiteness of the inputs is used.

  The kernel's idealization rewrites no operation, so there is nothing to preserve beyond reading the same text at the
  ideal values; the three programs' runs terminate with their arguments unchanged by their frames.
-/
import proofs.«120669_j12249246729036_1_alg».proof.Defs
import proofs.«120669_j12249246729036_1_alg».proof.Proof.Gen.Kernel
import proofs.«120669_j12249246729036_1_alg».proof.Proof.Gen.Kernel.Skeleton
import proofs.«120669_j12249246729036_1_alg».proof.Proof.Gen.Kernel.Launch
import proofs.«120669_j12249246729036_1_alg».proof.Proof.Gen.Kernel.Points
import proofs.«120669_j12249246729036_1_alg».proof.Proof.Gen.Kernel.Frame
import proofs.«120669_j12249246729036_1_alg».proof.Proof.Gen.KernelIdeal
import proofs.«120669_j12249246729036_1_alg».proof.Proof.Gen.KernelIdeal.Skeleton
import proofs.«120669_j12249246729036_1_alg».proof.Proof.Gen.KernelIdeal.Launch
import proofs.«120669_j12249246729036_1_alg».proof.Proof.Gen.KernelIdeal.Points
import proofs.«120669_j12249246729036_1_alg».proof.Proof.Gen.KernelIdeal.Frame
import proofs.«120669_j12249246729036_1_alg».proof.Proof.Gen.ReferenceIdeal
import proofs.«120669_j12249246729036_1_alg».proof.Proof.Gen.Pre_finite_inputs
import proofs.«120669_j12249246729036_1_alg».proof.Proof.Gen.KernelIdeal.Value
import proofs.«120669_j12249246729036_1_alg».proof.Proof.Gen.ReferenceIdeal.Run
import proofs.«120669_j12249246729036_1_alg».proof.Proof.Gen.ReferenceIdeal.Read
import proofs.«120669_j12249246729036_1_alg».proof.Proof.KernelValue
import proofs.«120669_j12249246729036_1_alg».proof.Proof.RefIsSpec
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the five arguments, both programs end with the result array at the specification of those
    arguments. -/
theorem algebraic : Cert.algebraic_KernelIdeal_ReferenceIdeal := by
  intro m ρ m' ρ' _ hagree
  refine ⟨_, Cert.Joiner.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.Joiner.Ref.result_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
